-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x4 : Shape := ⟨2, ![4194304, 4]⟩
abbrev S_ : Shape := ⟨0, ![]⟩

class Facts : Prop where
  bcast_S_S4194304x4 : S_.BroadcastsInDim S4194304x4 (![] : Fin 0 → Fin S4194304x4.rank)
  reducesTo_S4194304x4_S_d0_1 : S4194304x4.ReducesTo [0, 1] S_
  h_S_ : 0 < S_.numel

variable [Facts]

def fn {F : FTy → Type} [FloatOps F] (main_arg0 : FVec F S4194304x4 .f32) (main_arg1 : FVec F S4194304x4 .f32) : IVec S_ 1 :=
  let main_v0 : FVec F S4194304x4 .f32 := Host.absf main_arg0
  let main_cst : FVec F S_ .f32 := constant S_ .f32 0x7F800000#32
  let main_v1 : FVec F S4194304x4 .f32 := broadcastInDim S4194304x4 ![] bcast_S_S4194304x4 main_cst
  let main_v2 : IVec S4194304x4 1 := cmpf .olt main_v0 main_v1
  let main_c : IVec S_ 1 := constantI S_ 1 1#1
  let main_v3 : IVec S_ 1 := (fun x v => Host.reduce IntOp.andi x v reducesTo_S4194304x4_S_d0_1 h_S_) main_v2 main_c
  let main_v4 : FVec F S4194304x4 .f32 := Host.absf main_arg1
  let main_cst_0 : FVec F S_ .f32 := constant S_ .f32 0x7F800000#32
  let main_v5 : FVec F S4194304x4 .f32 := broadcastInDim S4194304x4 ![] bcast_S_S4194304x4 main_cst_0
  let main_v6 : IVec S4194304x4 1 := cmpf .olt main_v4 main_v5
  let main_c_1 : IVec S_ 1 := constantI S_ 1 1#1
  let main_v7 : IVec S_ 1 := (fun x v => Host.reduce IntOp.andi x v reducesTo_S4194304x4_S_d0_1 h_S_) main_v6 main_c_1
  let main_v8 : IVec S_ 1 := andi main_v3 main_v7
  main_v8
-- ==== Kernel.lean ====
abbrev S4194304x4 : Shape := ⟨2, ![4194304, 4]⟩
abbrev S1x1 : Shape := ⟨2, ![1, 1]⟩
abbrev S2048x4 : Shape := ⟨2, ![2048, 4]⟩
abbrev S2048x1 : Shape := ⟨2, ![2048, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4194304x4, .f32⟩
  | .hbm, ⟨1, _⟩ => ⟨S4194304x4, .f32⟩
  | .hbm, ⟨2, _⟩ => ⟨S1x1, .f32⟩
  | .hbm, ⟨3, _⟩ => ⟨S_, .f32⟩
  | .local _ .vmem, ⟨0, _⟩ => ⟨S2048x4, .f32⟩
  | .local _ .vmem, ⟨1, _⟩ => ⟨S2048x4, .f32⟩
  | .local _ .vmem, ⟨2, _⟩ => ⟨S2048x4, .f32⟩
  | .local _ .vmem, ⟨3, _⟩ => ⟨S2048x4, .f32⟩
  | .local _ .vmem, ⟨4, _⟩ => ⟨S1x1, .f32⟩
  | .local _ .vmem, ⟨5, _⟩ => ⟨S1x1, .f32⟩
  | _, _ => ⟨S4194304x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2048], ![false]⟩

def k0_cond2 (i : grid0.Coords) : BitVec 1 :=
  let arg0 : BitVec 32 := BitVec.ofNat 32 (i 0).val
  let c2047_i32 : BitVec 32 := 2047#32
  let v96 : BitVec 1 := Scalar.cmpi .eq arg0 c2047_i32
  let v97 : BitVec 32 := Scalar.extui v96
  let c0_i32_22 : BitVec 32 := 0#32
  let v98 : BitVec 1 := Scalar.cmpi .ne v97 c0_i32_22
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x4_S2048x4_0_0 : ∀ a, (![0, 0] : Fin 2 → Nat) a + S2048x4.size a ≤ S2048x4.size a
  h_S2048x4 : 0 < S2048x4.numel
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  reduces_S2048x1_S1 : S2048x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S4194304x4.size a
  hwx0_0 : ∀ i : grid0.Coords, EltTy.bits .f32 = 32 ∨ (Rect.block (s := S4194304x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S4194304x4.size a
  hwx0_1 : ∀ i : grid0.Coords, EltTy.bits .f32 = 32 ∨ (Rect.block (s := S4194304x4) S2048x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4194304x4 : Shape := ⟨2, ![4194304, 4]⟩
abbrev S4194304x1 : Shape := ⟨2, ![4194304, 1]⟩
abbrev S4194304 : Shape := ⟨1, ![4194304]⟩
abbrev S_ : Shape := ⟨0, ![]⟩

abbrev nBuf : Space → Nat
  | .hbm => 114
  | .vmem => 0
  | .smem => 0
  | _ => 0

abbrev bufTy : (tb : Table) → Fin (tcTables nBuf tb) → BufTy
  | .hbm, ⟨0, _⟩ => ⟨S4194304x4, .f32⟩
  | .hbm, ⟨1, _⟩ => ⟨S4194304x4, .f32⟩
  | .hbm, ⟨2, _⟩ => ⟨S4194304x1, .f32⟩
  | .hbm, ⟨3, _⟩ => ⟨S4194304, .f32⟩
  | .hbm, ⟨4, _⟩ => ⟨S4194304x1, .f32⟩
  | .hbm, ⟨5, _⟩ => ⟨S4194304, .f32⟩
  | .hbm, ⟨6, _⟩ => ⟨S4194304x1, .f32⟩
  | .hbm, ⟨7, _⟩ => ⟨S4194304, .f32⟩
  | .hbm, ⟨8, _⟩ => ⟨S4194304x1, .f32⟩
  | .hbm, ⟨9, _⟩ => ⟨S4194304, .f32⟩
  | .hbm, ⟨10, _⟩ => ⟨S4194304x1, .f32⟩
  | .hbm, ⟨11, _⟩ => ⟨S4194304, .f32⟩
  | .hbm, ⟨12, _⟩ => ⟨S4194304x1, .f32⟩
  | .hbm, ⟨13, _⟩ => ⟨S4194304, .f32⟩
  | .hbm, ⟨14, _⟩ => ⟨S4194304x1, .f32⟩
  | .hbm, ⟨15, _⟩ => ⟨S4194304, .f32⟩
  | .hbm, ⟨16, _⟩ => ⟨S4194304x1, .f32⟩
  | .hbm, ⟨17, _⟩ => ⟨S4194304, .f32⟩
  | .hbm, ⟨18, _⟩ => ⟨S4194304, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S_, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S4194304, .f32⟩
  | .hbm, ⟨28, _⟩ => ⟨S_, .f32⟩
  | .hbm, ⟨29, _⟩ => ⟨S_, .f32⟩
  | .hbm, ⟨30, _⟩ => ⟨S4194304, .f32⟩
  | .hbm, ⟨31, _⟩ => ⟨S4194304, .f32⟩
  | .hbm, ⟨32, _⟩ => ⟨S4194304, .f32⟩
  | .hbm, ⟨33, _⟩ => ⟨S4194304, .f32⟩
  | .hbm, ⟨34, _⟩ => ⟨S4194304, .f32⟩
  | .hbm, ⟨35, _⟩ => ⟨S4194304, .f32⟩
  | .hbm, ⟨36, _⟩ => ⟨S4194304, .f32⟩
  | .hbm, ⟨37, _⟩ => ⟨S4194304, .f32⟩
  | .hbm, ⟨38, _⟩ => ⟨S4194304, .f32⟩
  | .hbm, ⟨39, _⟩ => ⟨S4194304, .f32⟩
  | .hbm, ⟨40, _⟩ => ⟨S4194304, .f32⟩
  | .hbm, ⟨41, _⟩ => ⟨S_, .f32⟩
  | .hbm, ⟨42, _⟩ => ⟨S4194304, .f32⟩
  | .hbm, ⟨43, _⟩ => ⟨S4194304, .f32⟩
  | .hbm, ⟨44, _⟩ => ⟨S4194304, .f32⟩
  | .hbm, ⟨45, _⟩ => ⟨S4194304, .f32⟩
  | .hbm, ⟨46, _⟩ => ⟨S_, .f32⟩
  | .hbm, ⟨47, _⟩ => ⟨S4194304, .f32⟩
  | .hbm, ⟨48, _⟩ => ⟨S4194304, .f32⟩
  | .hbm, ⟨49, _⟩ => ⟨S4194304, .f32⟩
  | .hbm, ⟨50, _⟩ => ⟨S_, .f32⟩
  | .hbm, ⟨51, _⟩ => ⟨S4194304, .f32⟩
  | .hbm, ⟨52, _⟩ => ⟨S4194304, .f32⟩
  | .hbm, ⟨53, _⟩ => ⟨S4194304, .f32⟩
  | .hbm, ⟨54, _⟩ => ⟨S_, .f32⟩
  | .hbm, ⟨55, _⟩ => ⟨S4194304, .f32⟩
  | .hbm, ⟨56, _⟩ => ⟨S4194304, .f32⟩
  | .hbm, ⟨57, _⟩ => ⟨S4194304, .f32⟩
  | .hbm, ⟨58, _⟩ => ⟨S_, .f32⟩
  | .hbm, ⟨59, _⟩ => ⟨S4194304, .f32⟩
  | .hbm, ⟨60, _⟩ => ⟨S4194304, .f32⟩
  | .hbm, ⟨61, _⟩ => ⟨S4194304, .f32⟩
  | .hbm, ⟨62, _⟩ => ⟨S4194304, .f32⟩
  | .hbm, ⟨63, _⟩ => ⟨S4194304, .f32⟩
  | .hbm, ⟨64, _⟩ => ⟨S4194304, .f32⟩
  | .hbm, ⟨65, _⟩ => ⟨S4194304, .f32⟩
  | .hbm, ⟨66, _⟩ => ⟨S4194304, .f32⟩
  | .hbm, ⟨67, _⟩ => ⟨S4194304, .f32⟩
  | .hbm, ⟨68, _⟩ => ⟨S4194304, .f32⟩
  | .hbm, ⟨69, _⟩ => ⟨S4194304, .f32⟩
  | .hbm, ⟨70, _⟩ => ⟨S4194304, .f32⟩
  | .hbm, ⟨71, _⟩ => ⟨S4194304, .f32⟩
  | .hbm, ⟨72, _⟩ => ⟨S4194304, .f32⟩
  | .hbm, ⟨73, _⟩ => ⟨S4194304, .f32⟩
  | .hbm, ⟨74, _⟩ => ⟨S4194304, .f32⟩
  | .hbm, ⟨75, _⟩ => ⟨S_, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S_, .f32⟩
  | .hbm, ⟨82, _⟩ => ⟨S4194304, .f32⟩
  | .hbm, ⟨83, _⟩ => ⟨S4194304, .f32⟩
  | .hbm, ⟨84, _⟩ => ⟨S4194304, .f32⟩
  | .hbm, ⟨85, _⟩ => ⟨S4194304, .f32⟩
  | .hbm, ⟨86, _⟩ => ⟨S4194304, .f32⟩
  | .hbm, ⟨87, _⟩ => ⟨S4194304, .f32⟩
  | .hbm, ⟨88, _⟩ => ⟨S4194304, .f32⟩
  | .hbm, ⟨89, _⟩ => ⟨S4194304, .f32⟩
  | .hbm, ⟨90, _⟩ => ⟨S_, .f32⟩
  | .hbm, ⟨91, _⟩ => ⟨S4194304, .f32⟩
  | .hbm, ⟨92, _⟩ => ⟨S4194304, .f32⟩
  | .hbm, ⟨93, _⟩ => ⟨S4194304, .f32⟩
  | .hbm, ⟨94, _⟩ => ⟨S4194304, .f32⟩
  | .hbm, ⟨95, _⟩ => ⟨S4194304, .f32⟩
  | .hbm, ⟨96, _⟩ => ⟨S_, .f32⟩
  | .hbm, ⟨97, _⟩ => ⟨S4194304, .f32⟩
  | .hbm, ⟨98, _⟩ => ⟨S4194304, .f32⟩
  | .hbm, ⟨99, _⟩ => ⟨S4194304, .f32⟩
  | .hbm, ⟨100, _⟩ => ⟨S4194304, .f32⟩
  | .hbm, ⟨101, _⟩ => ⟨S4194304, .f32⟩
  | .hbm, ⟨102, _⟩ => ⟨S_, .f32⟩
  | .hbm, ⟨103, _⟩ => ⟨S4194304, .f32⟩
  | .hbm, ⟨104, _⟩ => ⟨S4194304, .f32⟩
  | .hbm, ⟨105, _⟩ => ⟨S4194304, .f32⟩
  | .hbm, ⟨106, _⟩ => ⟨S_, .f32⟩
  | .hbm, ⟨107, _⟩ => ⟨S4194304, .f32⟩
  | .hbm, ⟨108, _⟩ => ⟨S4194304, .f32⟩
  | .hbm, ⟨109, _⟩ => ⟨S4194304, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S4194304x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_13 : Ref sig .tc := ⟨.hbm, 110, rfl⟩
abbrev main_v90 : Ref sig .tc := ⟨.hbm, 111, rfl⟩
abbrev main_cst_14 : Ref sig .tc := ⟨.hbm, 112, rfl⟩
abbrev main_v91 : Ref sig .tc := ⟨.hbm, 113, rfl⟩

abbrev nD : Nat := 1
abbrev τ : Topo := Topo.v7x

variable {F : FTy → Type} [FloatOps F]

class Facts₀ : Prop where
  slices_S4194304x4_S4194304x1_0_0 : S4194304x4.Slices ![0, 0] S4194304x1
  shapeCasts_S4194304x1_S4194304 : S4194304x1.ShapeCasts S4194304
  slices_S4194304x4_S4194304x1_0_1 : S4194304x4.Slices ![0, 1] S4194304x1
  slices_S4194304x4_S4194304x1_0_2 : S4194304x4.Slices ![0, 2] S4194304x1
  slices_S4194304x4_S4194304x1_0_3 : S4194304x4.Slices ![0, 3] S4194304x1
  bcast_S_S4194304 : S_.BroadcastsInDim S4194304 (![] : Fin 0 → Fin S4194304.rank)
  reducesTo_S4194304_S_d0 : S4194304.ReducesTo [0] S_
  h_S_ : 0 < S_.numel

variable [Facts₀]

class Facts : Prop extends Facts₀ where

variable [Facts]
-- ==== Proof.KernelPieces.lean ====
/-
  What one grid point of the loss kernel leaves behind, as values.

  The kernel body, at every grid point, reads a block of 2048 predicted rows and a block of 2048 target rows, adds the
  sum of the 2048 row losses to a one-entry accumulator, and, at the last point only, writes the accumulator times 2⁻²²
  to the one-entry output. At the first point it first stores zero into the accumulator. Three control cases arise:
  the first point (A), a middle point (B), the last point (C). In each, what the accumulator holds afterwards is one
  function `blockStep` of the two blocks and of what the accumulator held before (zero in case A), and in case C the
  output holds `scaled` of that.
-/
import proofs.«124430_j89850715832989_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The accumulator after a point: what it held plus the sum of the block's row losses. -/
def blockStep (x0 x1 : Vec F S2048x4 .f32) (acc : Vec F S1x1 .f32) : Vec F S1x1 .f32 :=
  k0_pay1 (k0_pay17 (k0_pay4 x0) (k0_pay5 x0) (k0_pay6 x0) (k0_pay7 x0) (k0_pay8 x1) (k0_pay9 x1) (k0_pay10 x1)
    (k0_pay11 x1) (k0_pay12 x0 x1) (k0_pay13 x0) (k0_pay14 x0) (k0_pay15 x1) (k0_pay16 x1)
    (FloatOps.ofBits .f32 0x3F000000#32) acc)

/-- The zero the first point stores into the accumulator. -/
abbrev zeroAcc : Vec F S1x1 .f32 := k0_pay3 (F := F)

/-- What the last point writes to the output: the accumulator times the word 2⁻²². -/
abbrev scaled (acc : Vec F S1x1 .f32) : Vec F S1x1 .f32 := k0_pay2 acc

/-- A middle point leaves the accumulator at `blockStep` of what it held. -/
theorem acc_B (c : Dev nD) (i : grid0.Coords) (a1 : Memref sig .tc .vmem S2048x4 .f32) (h1 : a1.IsWhole)
    (a2 : Memref sig .tc .vmem S2048x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S2048x4 .f32) (xs : Vec F S1x1 .f32) :
    sout0_B_0 c i a1 h1 a2 h2 a3 h3 a4 h4 hc0 hc1 x0 x1 xs = blockStep x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S2048x4) hz,
    View.ld_unit_zero (S := S1x1) hz]
  rfl

/-- The first point stores zero into the accumulator and then leaves it at `blockStep` of that zero. -/
theorem acc_A (c : Dev nD) (i : grid0.Coords) (a1 : Memref sig .tc .vmem S2048x4 .f32) (h1 : a1.IsWhole)
    (a2 : Memref sig .tc .vmem S2048x4 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S2048x4 .f32) :
    sout0_A_0 c i a1 h1 a2 h2 a3 h3 a4 h4 hc0 hc1 x0 x1 = blockStep x0 x1 zeroAcc := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h4.read_unread, View.ld_unit_zero (S := S2048x4) hz,
    View.ld_unit_zero (S := S1x1) hz]
  rfl

/-- The last point leaves the accumulator at `blockStep` of what it held, -/
theorem acc_C (c : Dev nD) (i : grid0.Coords) (a1 : Memref sig .tc .vmem S2048x4 .f32) (h1 : a1.IsWhole)
    (a2 : Memref sig .tc .vmem S2048x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x4 .f32) (xs : Vec F S1x1 .f32) :
    sout0_C_0 c i a1 h1 a2 h2 a3 h3 a4 h4 hc0 hc1 x0 x1 xs = blockStep x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S2048x4) hz,
    View.ld_unit_zero (S := S1x1) hz]
  rfl

/-- and the output at that accumulator times 2⁻²². -/
theorem out_C (c : Dev nD) (i : grid0.Coords) (a1 : Memref sig .tc .vmem S2048x4 .f32) (h1 : a1.IsWhole)
    (a2 : Memref sig .tc .vmem S2048x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x4 .f32) (xs : Vec F S1x1 .f32) :
    out0_C_2 c i a1 h1 a2 h2 a3 h3 a4 h4 hc0 hc1 x0 x1 xs = scaled (blockStep x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S2048x4) hz,
    View.ld_unit_zero (S := S1x1) hz]
  rfl

end Cert.KernelIdeal.Pieces

end
-- ==== Proof.LossSpec.lean ====
/-
  The matched-pair box loss of one row of eight coordinates, as a function on the extended reals, and the mean of
  that loss over the 4194304 rows of two coordinate arrays.

  A row holds a predicted box (px1, py1, px2, py2) and a target box (tx1, ty1, tx2, ty2). Its loss is
      (1 - iou) + 2 · center + 1 · size
  where iou = inter / (parea + tarea - inter + ε) with inter the product of the two clipped overlaps,
  center = (squared distance of the two centres) / (squared diagonal of the enclosing box + ε + ε), and
  size = ((pw - tw) / (tw + ε))² + ((ph - th) / (th + ε))². Every operation is the exact one on the extended reals;
  ε, 1/2, 1 and 2 are kept as the float words the programs spell.
-/
import Idealize.ShloMosaic.PureOps.Ideal
import Idealize.ShloMosaic.Lib.ValueIdx

open scoped BigOperators

noncomputable section

namespace Cert.BoxLoss

open Idealize.ShloMosaic Idealize.ShloMosaic.ValueIdx

/-- The loss of one matched pair of boxes, with the clipping of an overlap at zero left as a parameter `clip`. -/
def lossWith (clip : EReal → EReal) (px1 py1 px2 py2 tx1 ty1 tx2 ty2 : EReal) : EReal :=
  let e : EReal := Ideal.ofBits .f32 0x33D6BF95#32
  let hf : EReal := Ideal.ofBits .f32 0x3F000000#32
  let one : EReal := Ideal.ofBits .f32 0x3F800000#32
  let two : EReal := Ideal.ofBits .f32 0x40000000#32
  let iw := clip (min px2 tx2 - max px1 tx1)
  let ih := clip (min py2 ty2 - max py1 ty1)
  let inter := iw * ih
  let pa := (px2 - px1) * (py2 - py1)
  let ta := (tx2 - tx1) * (ty2 - ty1)
  let iou := Ideal.div inter (pa + ta - inter + e)
  let pcx := (px1 + px2) * hf
  let pcy := (py1 + py2) * hf
  let tcx := (tx1 + tx2) * hf
  let tcy := (ty1 + ty2) * hf
  let cd := (pcx - tcx) * (pcx - tcx) + (pcy - tcy) * (pcy - tcy)
  let cw := max px2 tx2 - min px1 tx1
  let ch := max py2 ty2 - min py1 ty1
  let diag := cw * cw + ch * ch + e
  let center := Ideal.div cd (diag + e)
  let pw := px2 - px1
  let ph := py2 - py1
  let tw := tx2 - tx1
  let th := ty2 - ty1
  let sw := Ideal.div (pw - tw) (tw + e)
  let sh := Ideal.div (ph - th) (th + e)
  let size := sw * sw + sh * sh
  (one - iou) + two * center + one * size

/-- The loss of one matched pair of boxes: an overlap `u` is clipped to `max u 0`. -/
def loss (px1 py1 px2 py2 tx1 ty1 tx2 ty2 : EReal) : EReal :=
  lossWith (fun u => max u (Ideal.ofBits .f32 0x00000000#32)) px1 py1 px2 py2 tx1 ty1 tx2 ty2

/-- Clipping as `max 0 u` gives the same loss: `max` is commutative. -/
theorem lossWith_max_left (px1 py1 px2 py2 tx1 ty1 tx2 ty2 : EReal) :
    lossWith (fun u => max (Ideal.ofBits .f32 0x00000000#32) u) px1 py1 px2 py2 tx1 ty1 tx2 ty2
      = loss px1 py1 px2 py2 tx1 ty1 tx2 ty2 :=
  congrArg (fun f => lossWith f px1 py1 px2 py2 tx1 ty1 tx2 ty2) (funext fun u => max_comm _ u)

/-- The loss of row `n` of two `[N, 4]` coordinate arrays. -/
def rowLoss {N : ℕ} (P T : (⟨2, ![N, 4]⟩ : Shape).Idx → EReal) (n : Fin N) : EReal :=
  loss (P (ix2 n 0)) (P (ix2 n 1)) (P (ix2 n 2)) (P (ix2 n 3)) (T (ix2 n 0)) (T (ix2 n 1)) (T (ix2 n 2)) (T (ix2 n 3))

theorem rowLoss_eq {N : ℕ} (P T : (⟨2, ![N, 4]⟩ : Shape).Idx → EReal) (n : Fin N) :
    rowLoss P T n = loss (P (ix2 n 0)) (P (ix2 n 1)) (P (ix2 n 2)) (P (ix2 n 3)) (T (ix2 n 0)) (T (ix2 n 1)) (T (ix2 n 2))
      (T (ix2 n 3)) := rfl

/-- The sum of the row losses times the word 2⁻²²: the mean over 4194304 = 2²² rows. -/
def meanLoss (P T : (⟨2, ![4194304, 4]⟩ : Shape).Idx → EReal) : EReal :=
  (∑ n : Fin 4194304, rowLoss P T n) * Ideal.ofBits .f32 0x34800000#32

end Cert.BoxLoss

end
-- ==== Proof.LibPlaneSums.lean ====
/-
  Sums over a plane, and a comparison's bit as a float, at any extents, over the extended reals:
  the lane sum of a matrix `[a, b]` along its FIRST axis read at a column as the sum of that column's entries; the host's
  sum of an `[A, C, D]` array over its last two axes read at `a` as the initial value plus the double sum over the plane
  `a`; and the two ways a one-bit comparison result becomes the float 0 or 1 — widened to 32 bits and read as a signed
  integer, or read as an unsigned integer — are one value.
-/
import Idealize.ShloMosaic.Lib.ValueIdx
import Idealize.ShloMosaic.PureOps.Ideal.Laws

open scoped BigOperators

noncomputable section

namespace Cert.Lib.PlaneSums

open Idealize.ShloMosaic Idealize.ShloMosaic.ValueIdx

/-- A one-bit word widened to 32 bits and read as a signed integer is the bit read as a natural number: the two ways a
    comparison's result becomes the float 0 or 1. -/
theorem bit_sitofp_eq_uitofp (w : BitVec 1) :
    FloatOps.sitofp (F := Ideal) .f32 (w.setWidth 32) = FloatOps.uitofp (F := Ideal) .f32 w := by
  show (((w.setWidth 32).toInt : ℝ) : EReal) = ((w.toNat : ℝ) : EReal)
  have h : ∀ w : BitVec 1, (w.setWidth 32).toInt = (w.toNat : ℤ) := by decide
  rw [h w, Int.cast_natCast]

/-- The lane sum of an `[a, b]` array along its FIRST axis is, at column `c`, the sum of that column's `a` entries. -/
theorem multiReduction_add_ab_b_apply {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (c : Fin b) :
    multiReduction .add [(0 : Fin 2)] ⟨1, ![b]⟩ src acc h hφ hacc (ix1 c) = ∑ k : Fin a, src (ix2 k c) := by
  rw [Ideal.multiReduction_add_single]
  exact Finset.sum_congr rfl fun k _ => congrArg src (funext fun d => Fin.ext (by
    match d with | ⟨0, _⟩ => rfl | ⟨1, _⟩ => rfl))

/-- The host's sum of an `[A, C, D]` array over its last two axes is, at `a`, the initial value plus the double sum over
    the plane `a`. -/
theorem hostReduceAdd_plane_apply {A C D : ℕ} (x : (⟨3, ![A, C, D]⟩ : Shape).Idx → EReal) (init : EReal)
    (h' : (⟨3, ![A, C, D]⟩ : Shape).ReducesTo [(1 : Fin 3), 2] ⟨1, ![A]⟩) (a : Fin A) :
    Ideal.hostReduceAdd h' x init (ix1 a) = init + ∑ p : Fin C, ∑ q : Fin D, x (ix3 a p q) := by
  unfold Ideal.hostReduceAdd
  refine congrArg (init + ·) ?_
  have hdrop : ∀ i : (⟨3, ![A, C, D]⟩ : Shape).Idx, h'.drop i = ix1 a ↔ (i 0).val = a.val := by
    intro i
    constructor
    · intro e
      have e0 : (h'.drop i 0).val = a.val := congrArg (fun j : (⟨1, ![A]⟩ : Shape).Idx => (j 0).val) e
      exact e0
    · intro e0
      funext ax
      apply Fin.ext
      match ax with
      | ⟨0, _⟩ => exact e0
  rw [← Finset.sum_product']
  refine Finset.sum_nbij' (fun i => ((⟨(i 1).val, (i 1).isLt⟩ : Fin C), (⟨(i 2).val, (i 2).isLt⟩ : Fin D)))
    (fun pq => ix3 a pq.1 pq.2) (fun _ _ => Finset.mem_product.mpr ⟨Finset.mem_univ _, Finset.mem_univ _⟩) ?_ ?_ ?_ ?_
  · intro pq _
    exact Finset.mem_filter.mpr ⟨Finset.mem_univ _, (hdrop _).mpr rfl⟩
  · intro i hi
    have e0 := (hdrop i).mp (Finset.mem_filter.mp hi).2
    funext ax
    apply Fin.ext
    match ax with
    | ⟨0, _⟩ => show a.val = (i 0).val; exact e0.symm
    | ⟨1, _⟩ => rfl
    | ⟨2, _⟩ => rfl
  · intro pq _
    rfl
  · intro i hi
    have e0 := (hdrop i).mp (Finset.mem_filter.mp hi).2
    refine congrArg x ?_
    funext ax
    apply Fin.ext
    match ax with
    | ⟨0, _⟩ => show (i 0).val = a.val; exact e0
    | ⟨1, _⟩ => rfl
    | ⟨2, _⟩ => rfl

end Cert.Lib.PlaneSums

end
-- ==== Proof.KernelPayload.lean ====
/-
  One grid point of the loss kernel read over the extended reals.

  At a point the kernel cuts the four coordinate columns out of each of its two blocks of 2048 rows, computes the
  2048 row losses entry by entry, sums them along the row axis, and adds the sum to the one-entry accumulator. So after
  the point the accumulator's entry is what it held plus the sum over the block's rows of the row loss; the zero the
  first point stores is the real number zero; and the last point's output entry is the accumulator's times 2⁻²².
-/
import proofs.«124430_j89850715832989_1_alg».proof.Proof.KernelPieces
import proofs.«124430_j89850715832989_1_alg».proof.Proof.LossSpec
import proofs.«124430_j89850715832989_1_alg».proof.Proof.LibPlaneSums
import Idealize.ShloMosaic.PureOps.Ideal.Laws

set_option maxRecDepth 16384

open scoped BigOperators

noncomputable section

open Idealize.ShloMosaic Idealize.ShloMosaic.TcCoe Idealize.ShloMosaic.ValueIdx

namespace Cert.KernelIdeal.Payload

open Cert.KernelIdeal Cert.KernelIdeal.Gen Cert.KernelIdeal.Pieces Cert.BoxLoss

/-- Column `o` of a block of rows, cut out as a one-column matrix, holds at row `r` the block's entry `(r, o)`. -/
theorem column_apply (x : Vec Ideal S2048x4 .f32) (o : Fin 4) (h : S2048x4.Slices ![0, o.val] S2048x1) (r : Fin 2048) :
    extractStridedSlice S2048x1 ![0, o.val] x h (ix2 r (0 : Fin 1)) = x (ix2 r o) :=
  extractStridedSlice_apply ![0, o.val] x h (ix2 r (0 : Fin 1)) (ix2 r o) (fun a => match a with
    | ⟨0, _⟩ => by show r.val = 0 + r.val; omega
    | ⟨1, _⟩ => by show o.val = o.val + 0; omega)

/-- The only index of a one-entry matrix. -/
theorem idx_S1x1 (j : S1x1.Idx) : j = ix2 (0 : Fin 1) (0 : Fin 1) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega

/-- After a point the accumulator's entry is what it held plus the sum of the block's 2048 row losses. -/
theorem blockStep_apply (x0 x1 : Vec Ideal S2048x4 .f32) (acc : Vec Ideal S1x1 .f32) (j : S1x1.Idx) :
    blockStep (F := Ideal) x0 x1 acc j = acc j + ∑ r : Fin 2048, rowLoss x0 x1 r := by
  unfold blockStep k0_pay1
  refine (congrFun (shapeCast_self _ _) j).trans ?_
  unfold k0_pay17
  refine congrArg (acc j + ·) ?_
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show 0 = (j 0).val * 1 + (j 1).val
    omega
  refine (Cert.Lib.PlaneSums.multiReduction_add_ab_b_apply _ _ _ _ _ (0 : Fin 1)).trans ?_
  refine Finset.sum_congr rfl fun r _ => ?_
  have e4 : k0_pay4 x0 (ix2 r (0 : Fin 1)) = x0 (ix2 r 0) := column_apply x0 0 Facts₀.slices_S2048x4_o0_0_S2048x1 r
  have e5 : k0_pay5 x0 (ix2 r (0 : Fin 1)) = x0 (ix2 r 1) := column_apply x0 1 Facts₀.slices_S2048x4_o0_1_S2048x1 r
  have e6 : k0_pay6 x0 (ix2 r (0 : Fin 1)) = x0 (ix2 r 2) := column_apply x0 2 Facts₀.slices_S2048x4_o0_2_S2048x1 r
  have e7 : k0_pay7 x0 (ix2 r (0 : Fin 1)) = x0 (ix2 r 3) := column_apply x0 3 Facts₀.slices_S2048x4_o0_3_S2048x1 r
  have e8 : k0_pay8 x1 (ix2 r (0 : Fin 1)) = x1 (ix2 r 0) := column_apply x1 0 Facts₀.slices_S2048x4_o0_0_S2048x1 r
  have e9 : k0_pay9 x1 (ix2 r (0 : Fin 1)) = x1 (ix2 r 1) := column_apply x1 1 Facts₀.slices_S2048x4_o0_1_S2048x1 r
  have e10 : k0_pay10 x1 (ix2 r (0 : Fin 1)) = x1 (ix2 r 2) := column_apply x1 2 Facts₀.slices_S2048x4_o0_2_S2048x1 r
  have e11 : k0_pay11 x1 (ix2 r (0 : Fin 1)) = x1 (ix2 r 3) := column_apply x1 3 Facts₀.slices_S2048x4_o0_3_S2048x1 r
  unfold rowLoss
  rw [← e4, ← e5, ← e6, ← e7, ← e8, ← e9, ← e10, ← e11]
  rfl

/-- The zero the first point stores is the real number zero. -/
theorem zeroAcc_apply (j : S1x1.Idx) : zeroAcc (F := Ideal) j = 0 := by
  unfold zeroAcc k0_pay3
  refine (congrFun (shapeCast_self _ _) j).trans ?_
  exact Ideal.ofBits_zero_f32

/-- The last point's output entry is the accumulator's entry times the word 2⁻²². -/
theorem scaled_apply (acc : Vec Ideal S1x1 .f32) (j : S1x1.Idx) :
    scaled (F := Ideal) acc j = acc j * Ideal.ofBits .f32 0x34800000#32 := rfl

end Cert.KernelIdeal.Payload

end
-- ==== Proof.LibBlockSums.lean ====
/-
  Three re-indexing lemmas for finite sums in an additive commutative monoid.

  * A sum over the indices of a three-axis shape is the triple sum over the three coordinates.
  * A sum over `A * B` rows is the sum over `A` blocks of the sums over the `B` rows of each block
    (row `t * B + r` is row `r` of block `t`).
  * `G` groups of `K` terms each, group `g`'s terms placed in the first `K` slots of an `R × L` array of slots
    (slot `(r, l)` has number `r * L + l`, and a term is selected for a slot by comparing its number with the slot's):
    summing every slot of every group gives the sum of all `G * K` terms.

  Nothing here depends on what the terms are; the lemmas hold in every additive commutative monoid.
-/
import Mathlib.Algebra.BigOperators.Fin
import Mathlib.Algebra.BigOperators.Intervals
import Idealize.ShloMosaic.Lib.ValueIdx

open scoped BigOperators

namespace BlockSums

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- a sum over the indices of a three-axis shape is the triple sum over its coordinates -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `t`, numbered `t * B + r`, is one of the `A * B` rows. -/
theorem block_row_lt {A B : Nat} (t : Fin A) (r : Fin B) : t.val * B + r.val < A * B :=
  calc t.val * B + r.val < t.val * B + B := Nat.add_lt_add_left r.isLt _
    _ = (t.val + 1) * B := (Nat.succ_mul _ _).symm
    _ ≤ A * B := Nat.mul_le_mul_right _ t.isLt

/-- a sum over N = A·B rows is the sum over A blocks of the sum over the B rows of a block -/
theorem sum_blocks (A B N : Nat) (hN : N = A * B) (g : Fin N → M) :
    ∑ n : Fin N, g n = ∑ t : Fin A, ∑ r : Fin B, g ⟨t.val * B + r.val, by subst hN; exact block_row_lt t r⟩ := by
  subst hN
  rw [← finProdFinEquiv.sum_comp, Fintype.sum_prod_type]
  refine Finset.sum_congr rfl fun t _ => Finset.sum_congr rfl fun r _ => ?_
  congr 1
  apply Fin.ext
  show r.val + B * t.val = t.val * B + r.val
  rw [Nat.mul_comm, Nat.add_comm]

/-- One group: the first `K` terms of a sequence, term `i` selected for the slot numbered `i` of an `R × L` array of
    slots (slot `(r, l)` has number `r * L + l`); when the array has at least `K` slots, summing every slot gives the
    sum of the `K` terms, since each `i < K` is the number of exactly one slot. -/
theorem sum_onehot_slots (R L K : Nat) (hK : K ≤ R * L) (c : Nat → M) :
    ∑ r : Fin R, ∑ l : Fin L, ∑ i ∈ Finset.range K, (if r.val * L + l.val = i then c i else 0)
      = ∑ i ∈ Finset.range K, c i :=
  calc ∑ r : Fin R, ∑ l : Fin L, ∑ i ∈ Finset.range K, (if r.val * L + l.val = i then c i else 0)
      = ∑ r : Fin R, ∑ l : Fin L,
          (fun n : Fin (R * L) => if n.val < K then c n.val else 0) ⟨r.val * L + l.val, block_row_lt r l⟩ := by
        refine Finset.sum_congr rfl fun r _ => Finset.sum_congr rfl fun l _ => ?_
        rw [Finset.sum_ite_eq]
        simp only [Finset.mem_range]
    _ = ∑ n : Fin (R * L), (if n.val < K then c n.val else 0) :=
        (sum_blocks R L (R * L) rfl (fun n : Fin (R * L) => if n.val < K then c n.val else 0)).symm
    _ = ∑ n ∈ Finset.range (R * L), (if n < K then c n else 0) :=
        Fin.sum_univ_eq_sum_range (fun n => if n < K then c n else 0) (R * L)
    _ = ∑ n ∈ Finset.range K, (if n < K then c n else 0) := by
        refine (Finset.sum_subset (Finset.range_subset_range.mpr hK) fun n _ hn => ?_).symm
        exact if_neg fun h => hn (Finset.mem_range.mpr h)
    _ = ∑ n ∈ Finset.range K, c n :=
        Finset.sum_congr rfl fun n hn => if_pos (Finset.mem_range.mp hn)

/-- G groups of K tile sums, group g's sums parked in the first K slots of an R×L slot array (slot (r,l) has number
    r·L + l, one-hot by the slot number): summing every slot of every group gives the sum of all the tile sums -/
theorem sum_slots (G R L K N : Nat) (hK : K ≤ R * L) (hN : N = G * K) (F : Fin N → M) :
    ∑ g : Fin G, ∑ r : Fin R, ∑ l : Fin L, ∑ i ∈ Finset.range K,
        (if r.val * L + l.val = i then (if h : K * g.val + i < N then F ⟨K * g.val + i, h⟩ else 0) else 0)
      = ∑ t : Fin N, F t := by
  rw [sum_blocks G K N hN F]
  refine Finset.sum_congr rfl fun g _ => ?_
  refine (sum_onehot_slots R L K hK
    (fun i => if h : K * g.val + i < N then F ⟨K * g.val + i, h⟩ else 0)).trans ?_
  rw [← Fin.sum_univ_eq_sum_range (fun i => if h : K * g.val + i < N then F ⟨K * g.val + i, h⟩ else 0) K]
  refine Finset.sum_congr rfl fun i _ => ?_
  have h : K * g.val + i.val < N := by
    rw [hN, Nat.mul_comm K g.val]
    exact block_row_lt g i
  rw [dif_pos h]
  congr 1
  apply Fin.ext
  show K * g.val + i.val = g.val * K + i.val
  rw [Nat.mul_comm]

end BlockSums
-- ==== Proof.KernelAcc.lean ====
/-
  The accumulator of the loss kernel across the grid, over the extended reals.

  Grid point `t` (of 2048) is handed rows `2048·t … 2048·t + 2047` of the two `[4194304, 4]` coordinate arrays. By
  induction on the point, after point `n` the accumulator's one entry is the sum of the block sums of points `0 … n`;
  after the last point that is the sum of all 4194304 row losses (a sum over `2048 · 2048` rows is the sum over 2048
  blocks of the sums over each block's 2048 rows — only associativity and commutativity of addition are used, so no
  entry needs to be finite), and the output's one entry is that sum times 2⁻²².
-/
import proofs.«124430_j89850715832989_1_alg».proof.Proof.KernelPayload
import proofs.«124430_j89850715832989_1_alg».proof.Proof.LibBlockSums

set_option maxRecDepth 16384

open scoped BigOperators

noncomputable section

open Idealize.ShloMosaic Idealize.ShloMosaic.TcCoe Idealize.ShloMosaic.ValueIdx Idealize.SL.Sem

namespace Cert.KernelIdeal.Acc

open Cert.KernelIdeal Cert.KernelIdeal.Gen Cert.KernelIdeal.Pieces Cert.KernelIdeal.Payload Cert.BoxLoss

variable (m : (ℓ : Loc nD τ sig) → Buf (Elt Ideal) ℓ)

/-- The predicted and the target coordinate arrays, as the kernel finds them. -/
abbrev P (c : Dev nD) : (⟨2, ![4194304, 4]⟩ : Shape).Idx → EReal := m ((c : Thread nD τ).loc main_arg0)
abbrev T (c : Dev nD) : (⟨2, ![4194304, 4]⟩ : Shape).Idx → EReal := m ((c : Thread nD τ).loc main_arg1)

/-- Both input windows' block index at point `t` is `(t, 0)`. -/
theorem index_facts : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- Row `r` of block `t` is row `2048·t + r` of the array. -/
theorem row_lt (t : Fin cfg0.N) (r : Fin 2048) : t.val * 2048 + r.val < 4194304 := by
  have hN : t.val < 2048 := lt_of_lt_of_eq t.isLt (show cfg0.N = 2048 from N_0)
  have hr := r.isLt
  omega

/-- The predicted block at point `t`, entry `(r, o)`. -/
theorem iblk0_apply (c : Dev nD) (t : Fin cfg0.N) (r : Fin 2048) (o : Fin 4) :
    (iblk m c 0 t : Vec Ideal S2048x4 .f32) (ix2 r o) = P m c (ix2 ⟨t.val * 2048 + r.val, row_lt t r⟩ o) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2048 + 1 * r.val = t.val * 2048 + r.val; rw [(index_facts t).1.1]; omega
  | ⟨1, _⟩ => show win0_0.index t 1 * 4 + 1 * o.val = o.val; rw [(index_facts t).1.2]; omega

/-- The target block at point `t`, entry `(r, o)`. -/
theorem iblk1_apply (c : Dev nD) (t : Fin cfg0.N) (r : Fin 2048) (o : Fin 4) :
    (iblk m c 1 t : Vec Ideal S2048x4 .f32) (ix2 r o) = T m c (ix2 ⟨t.val * 2048 + r.val, row_lt t r⟩ o) := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2048 + 1 * r.val = t.val * 2048 + r.val; rw [(index_facts t).2.1]; omega
  | ⟨1, _⟩ => show win0_1.index t 1 * 4 + 1 * o.val = o.val; rw [(index_facts t).2.2]; omega

/-- The sum of the row losses of block `t`. -/
def blockSum (c : Dev nD) (t : Fin cfg0.N) : EReal :=
  ∑ r : Fin 2048, rowLoss (P m c) (T m c) ⟨t.val * 2048 + r.val, row_lt t r⟩

/-- The same for a natural number, zero past the grid. -/
def blockSumN (c : Dev nD) (n : ℕ) : EReal := if h : n < cfg0.N then blockSum m c ⟨n, h⟩ else 0

/-- The block sum the kernel takes at point `t` is `blockSum`. -/
theorem sum_iblk (c : Dev nD) (t : Fin cfg0.N) :
    ∑ r : Fin 2048, rowLoss (iblk m c 0 t : Vec Ideal S2048x4 .f32) (iblk m c 1 t : Vec Ideal S2048x4 .f32) r
      = blockSum m c t := by
  unfold blockSum
  refine Finset.sum_congr rfl fun r _ => ?_
  unfold rowLoss
  rw [iblk0_apply m c t r 0, iblk0_apply m c t r 1, iblk0_apply m c t r 2, iblk0_apply m c t r 3,
    iblk1_apply m c t r 0, iblk1_apply m c t r 1, iblk1_apply m c t r 2, iblk1_apply m c t r 3]

/-- After point `n` the accumulator's entry is the sum of the block sums of the points up to `n`. -/
theorem acc_eq (c : Dev nD) : ∀ (n : ℕ) (h : n < cfg0.N) (j : S1x1.Idx),
    (outsAt0 m c n h).2 j = ∑ k ∈ Finset.range (n + 1), blockSumN m c k
  | 0, h, j => by
    rw [outsAt0_A m c ⟨0, h⟩ rfl (by dsimp only; omega)]
    dsimp only
    rw [acc_A, blockStep_apply, zeroAcc_apply, zero_add, sum_iblk, Finset.sum_range_one]
    unfold blockSumN
    rw [dif_pos h]
  | n + 1, h, j => by
    have hN : cfg0.N = 2048 := N_0
    have h0 : ¬(⟨n + 1, h⟩ : Fin cfg0.N).val % 2048 = 0 := by dsimp only; omega
    have step : ∀ acc : Vec Ideal S1x1 .f32, (∀ j, acc j = ∑ k ∈ Finset.range (n + 1), blockSumN m c k) →
        blockStep (iblk m c 0 ⟨n + 1, h⟩ : Vec Ideal S2048x4 .f32) (iblk m c 1 ⟨n + 1, h⟩ : Vec Ideal S2048x4 .f32) acc j
          = ∑ k ∈ Finset.range (n + 1 + 1), blockSumN m c k := by
      intro acc hacc
      rw [blockStep_apply, hacc j, sum_iblk, Finset.sum_range_succ _ (n + 1)]
      congr 1
      unfold blockSumN
      rw [dif_pos h]
    by_cases h1 : (⟨n + 1, h⟩ : Fin cfg0.N).val % 2048 = 2047
    · rw [outsAt0_C m c ⟨n + 1, h⟩ h0 h1]
      dsimp only
      rw [acc_C]
      exact step _ (fun j => acc_eq c n _ j)
    · rw [outsAt0_B m c ⟨n + 1, h⟩ h0 h1]
      dsimp only
      rw [acc_B]
      exact step _ (fun j => acc_eq c n _ j)

/-- The 2048 block sums add up to the sum of all 4194304 row losses. -/
theorem total (c : Dev nD) :
    ∑ k ∈ Finset.range 2048, blockSumN m c k = ∑ n : Fin 4194304, rowLoss (P m c) (T m c) n := by
  rw [BlockSums.sum_blocks 2048 2048 4194304 (by norm_num) (rowLoss (P m c) (T m c)),
    ← Fin.sum_univ_eq_sum_range (fun k => blockSumN m c k) 2048]
  refine Finset.sum_congr rfl fun t _ => ?_
  have ht : t.val < cfg0.N := lt_of_lt_of_eq t.isLt (show cfg0.N = 2048 from N_0).symm
  unfold blockSumN
  rw [dif_pos ht]
  rfl

/-- At the last point the output's entry is the mean of the row losses. -/
theorem out_last (c : Dev nD) (t : Fin cfg0.N) (h1 : t.val % 2048 = 2047) (j : S1x1.Idx) :
    (outsAt0 m c t.val t.isLt).1 j = meanLoss (P m c) (T m c) := by
  have hN : t.val < 2048 := lt_of_lt_of_eq t.isLt (show cfg0.N = 2048 from N_0)
  have h0 : ¬t.val % 2048 = 0 := by omega
  have hpos : t.val - 1 + 1 = 2047 := by omega
  have hblk : blockSum m c t = blockSumN m c 2047 := by
    unfold blockSumN
    rw [dif_pos (by rw [show cfg0.N = 2048 from N_0]; omega)]
    exact congrArg (blockSum m c) (Fin.ext (by show t.val = 2047; omega))
  rw [outsAt0_C m c t h0 h1]
  dsimp only
  rw [out_C, scaled_apply, blockStep_apply, acc_eq m c (t.val - 1) _ j, sum_iblk, hpos, hblk,
    ← Finset.sum_range_succ (fun k => blockSumN m c k) 2047, total]
  rfl

end Cert.KernelIdeal.Acc

end
-- ==== Proof.KernelValue.lean ====
/-
  What the loss kernel's program returns, over the extended reals.

  The output array has one entry and one block; only the last grid point writes it back, with the accumulator times
  2⁻²², which is the mean of the 4194304 row losses. The program then views the one-entry matrix as a scalar. So every
  execution ends with the result at that mean and both coordinate arrays unchanged.
-/
import proofs.«124430_j89850715832989_1_alg».proof.Proof.KernelAcc
import Idealize.ShloMosaic.Lib.StableHlo.Run

set_option maxRecDepth 16384

open scoped BigOperators

noncomputable section

open Idealize.ShloMosaic Idealize.ShloMosaic.TcCoe Idealize.ShloMosaic.ValueIdx Idealize.SL.Sem
open Idealize.ShloMosaic.Pipeline (Dat)

namespace Cert.KernelIdeal.RunValue

open Cert.KernelIdeal Cert.KernelIdeal.Gen Cert.KernelIdeal.Acc Cert.BoxLoss

variable (m : (ℓ : Loc nD τ sig) → Buf (Elt Ideal) ℓ) (ρ : Dev nD → PrngReg)

/-- The output array's contents after the run: its one entry at the mean loss. -/
abbrev outArr (c : Dev nD) : Buf (Elt Ideal) ((c : Thread nD τ).loc main_v0) := fun _ => meanLoss (P m c) (T m c)

/-- The scalar result. -/
abbrev result (c : Dev nD) : Buf (Elt Ideal) ((c : Thread nD τ).loc main_v1) := fun _ => meanLoss (P m c) (T m c)

/-- The one write-back, at the last point, writes the mean. -/
theorem flushed_eq (c : Dev nD) (t : Fin cfg0.N) (hf : (cfg0.win 2).flush t = true) :
    (dats m 0 c).flushed 2 t = ((cfg0.win 2).blk t).view.read (Elt Ideal) (outArr m c) := by
  have h1 : t.val % 2048 = 2047 := (flush0_2 t).mp hf
  funext y
  rw [View.read_apply]
  show (cfg0.win 2).cut (grid0.coords t) ((dats m 0 c).after 2 t) y = _
  rw [after0_2]
  have hl := out_last m c t h1 ((cfg0.win 2).xinj (grid0.coords t) y)
  have hr : outArr m c (((cfg0.win 2).blk t).view.emb y) = meanLoss (P m c) (T m c) := rfl
  rw [hr]
  exact hl.trans (cast_eq _ _).symm

/-- The last grid point. -/
def tLast : Fin cfg0.N := ⟨2047, by rw [show cfg0.N = 2048 from N_0]; omega⟩

/-- The output window's block index is `(0, 0)` and its block the whole one-entry array, at every point. -/
theorem out_index_facts : ∀ t : Fin cfg0.N, (win0_2.index t 0 = 0 ∧ win0_2.index t 1 = 0)
    ∧ (win0_2.xsize (grid0.coords t) 0 = 1 ∧ win0_2.xsize (grid0.coords t) 1 = 1) :=
  (by decide +kernel : ∀ t : Fin grid0.N, (win0_2.index t 0 = 0 ∧ win0_2.index t 1 = 0)
    ∧ (win0_2.xsize (grid0.coords t) 0 = 1 ∧ win0_2.xsize (grid0.coords t) 1 = 1))

/-- So the output array ends at the mean. -/
theorem final (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [(out_index_facts tLast).1.1, (out_index_facts tLast).2.1]; omega
      | ⟨1, _⟩ => show win0_2.index tLast 1 * win0_2.size 1 ≤ (i 1 : Nat) ∧ (i 1 : Nat) < win0_2.index tLast 1 * win0_2.size 1 + win0_2.xsize (grid0.coords tLast) 1
                  rw [(out_index_facts tLast).1.2, (out_index_facts tLast).2.2]; omega⟩

/-- The scalar view of the one-entry output, taken after the region, is the mean. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have hA : Pipeline.withArrays (cfgs 0).spec c (V0 m c) (fun w => (dats m 0 c).arrAt w (cfgs 0).N)
      (Proc.devRef .tc main_v0) = outArr m c :=
    (Pipeline.withArrays_arr spec0 launch0.win.arr_inj c _ _ 2).trans (final m c)
  rw [hA]
  rfl

/-- THE RUN: every execution of the kernel's program ends with the result at the mean loss of the two coordinate
    arrays and with both arrays unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.LibIdx1.lean ====
/-
  A sum over the indices of a one-axis shape is the sum over its one coordinate, in any additive commutative monoid.
-/
import Mathlib.Algebra.BigOperators.Fin
import Idealize.ShloMosaic.Lib.ValueIdx

open scoped BigOperators

namespace Cert.Lib.Idx1

open Idealize.ShloMosaic Idealize.ShloMosaic.ValueIdx

variable {M : Type*} [AddCommMonoid M]

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- a sum over the indices of a one-axis shape is the sum over its coordinate -/
theorem sum_idx1 {n : Nat} (f : (⟨1, ![n]⟩ : Shape).Idx → M) : ∑ j, f j = ∑ a : Fin n, f (ix1 a) :=
  (Equiv.sum_comp (idxEquiv1 (n := n)).symm f).symm

end Cert.Lib.Idx1
-- ==== Proof.RefValue.lean ====
/-
  What the reference program returns, over the extended reals.

  The reference cuts the four coordinate columns out of each whole array as vectors of 4194304 entries, computes the
  row losses entry by entry (clipping an overlap as `max 0 u`), sums them from zero, and divides by 4194304. Entry `n`
  of its loss vector is the row loss of row `n`; the sum from zero is the sum; and dividing an extended real by
  2²² is multiplying it by 2⁻²² — so the reference returns the mean loss.
-/
import proofs.«124430_j89850715832989_1_alg».proof.Proof.Gen.ReferenceIdeal.Read
import proofs.«124430_j89850715832989_1_alg».proof.Proof.LossSpec
import proofs.«124430_j89850715832989_1_alg».proof.Proof.LibIdx1
import Idealize.ShloMosaic.PureOps.Ideal.Laws

set_option maxRecDepth 16384

open scoped BigOperators

noncomputable section

open Idealize.ShloMosaic Idealize.ShloMosaic.TcCoe Idealize.ShloMosaic.ValueIdx

namespace Cert.ReferenceIdeal.RefValue

open Cert.ReferenceIdeal Cert.ReferenceIdeal.Read Cert.BoxLoss

variable (x0 x1 : (⟨S4194304x4, .f32⟩ : BufTy).Contents (Elt Ideal))

/-- Column `o` of an array, as the vector the reference cuts out, holds at `n` the array's entry `(n, o)`. -/
theorem col0 (x : (⟨S4194304x4, .f32⟩ : BufTy).Contents (Elt Ideal)) (n : Fin 4194304) :
    val_main_v1 (F := Ideal) x (ix1 n) = x (ix2 n 0) := by
  rw [val_main_v1_apply, val_main_v0_apply]
  exact congrArg x (funext fun a => Fin.ext (by
    match a with
    | ⟨0, _⟩ => exact Nat.div_one _
    | ⟨1, _⟩ => rfl))

theorem col1 (x : (⟨S4194304x4, .f32⟩ : BufTy).Contents (Elt Ideal)) (n : Fin 4194304) :
    val_main_v3 (F := Ideal) x (ix1 n) = x (ix2 n 1) := by
  rw [val_main_v3_apply, val_main_v2_apply]
  exact congrArg x (funext fun a => Fin.ext (by
    match a with
    | ⟨0, _⟩ => exact Nat.div_one _
    | ⟨1, _⟩ => rfl))

theorem col2 (x : (⟨S4194304x4, .f32⟩ : BufTy).Contents (Elt Ideal)) (n : Fin 4194304) :
    val_main_v5 (F := Ideal) x (ix1 n) = x (ix2 n 2) := by
  rw [val_main_v5_apply, val_main_v4_apply]
  exact congrArg x (funext fun a => Fin.ext (by
    match a with
    | ⟨0, _⟩ => exact Nat.div_one _
    | ⟨1, _⟩ => rfl))

theorem col3 (x : (⟨S4194304x4, .f32⟩ : BufTy).Contents (Elt Ideal)) (n : Fin 4194304) :
    val_main_v7 (F := Ideal) x (ix1 n) = x (ix2 n 3) := by
  rw [val_main_v7_apply, val_main_v6_apply]
  exact congrArg x (funext fun a => Fin.ext (by
    match a with
    | ⟨0, _⟩ => exact Nat.div_one _
    | ⟨1, _⟩ => rfl))

theorem tcol0 (x : (⟨S4194304x4, .f32⟩ : BufTy).Contents (Elt Ideal)) (n : Fin 4194304) :
    val_main_v9 (F := Ideal) x (ix1 n) = x (ix2 n 0) := by
  rw [val_main_v9_apply, val_main_v8_apply]
  exact congrArg x (funext fun a => Fin.ext (by
    match a with
    | ⟨0, _⟩ => exact Nat.div_one _
    | ⟨1, _⟩ => rfl))

theorem tcol1 (x : (⟨S4194304x4, .f32⟩ : BufTy).Contents (Elt Ideal)) (n : Fin 4194304) :
    val_main_v11 (F := Ideal) x (ix1 n) = x (ix2 n 1) := by
  rw [val_main_v11_apply, val_main_v10_apply]
  exact congrArg x (funext fun a => Fin.ext (by
    match a with
    | ⟨0, _⟩ => exact Nat.div_one _
    | ⟨1, _⟩ => rfl))

theorem tcol2 (x : (⟨S4194304x4, .f32⟩ : BufTy).Contents (Elt Ideal)) (n : Fin 4194304) :
    val_main_v13 (F := Ideal) x (ix1 n) = x (ix2 n 2) := by
  rw [val_main_v13_apply, val_main_v12_apply]
  exact congrArg x (funext fun a => Fin.ext (by
    match a with
    | ⟨0, _⟩ => exact Nat.div_one _
    | ⟨1, _⟩ => rfl))

theorem tcol3 (x : (⟨S4194304x4, .f32⟩ : BufTy).Contents (Elt Ideal)) (n : Fin 4194304) :
    val_main_v15 (F := Ideal) x (ix1 n) = x (ix2 n 3) := by
  rw [val_main_v15_apply, val_main_v14_apply]
  exact congrArg x (funext fun a => Fin.ext (by
    match a with
    | ⟨0, _⟩ => exact Nat.div_one _
    | ⟨1, _⟩ => rfl))

/-- Entry `n` of the reference's loss vector is the row loss of row `n`. -/
theorem row_eq (n : Fin 4194304) : val_main_v89 (F := Ideal) x0 x1 (ix1 n) = rowLoss x0 x1 n := by
  rw [rowLoss_eq, ← lossWith_max_left, ← col0 x0 n, ← col1 x0 n, ← col2 x0 n, ← col3 x0 n, ← tcol0 x1 n, ← tcol1 x1 n,
    ← tcol2 x1 n, ← tcol3 x1 n]
  rfl

/-- The reference's sum from zero is the sum of the row losses. -/
theorem sum_eq (i : S_.Idx) :
    val_main_v90 (F := Ideal) x0 x1 i = ∑ n : Fin 4194304, rowLoss x0 x1 n := by
  rw [val_main_v90_apply, val_main_cst_13_apply, Ideal.ofBits_def, Ideal.ofBits_zero_f32, zero_add,
    Cert.Lib.Idx1.sum_idx1]
  exact Finset.sum_congr rfl fun n _ => row_eq x0 x1 n

/-- The word `0x4A800000` is the real number 2²² = 4194304, -/
theorem word_two_pow_22 : Ideal.ofBits .f32 0x4A800000#32 = ((4194304 : ℝ) : EReal) := by
  simp [Ideal.ofBits, Ideal.ieee, -EReal.coe_mul]; norm_num

/-- and the word `0x34800000` its reciprocal 2⁻²². -/
theorem word_two_pow_neg_22 : Ideal.ofBits .f32 0x34800000#32 = ((1 / 4194304 : ℝ) : EReal) := by
  simp [Ideal.ofBits, Ideal.ieee, -EReal.coe_mul]; norm_num

/-- The reference returns the mean loss: the quotient of the sum by 2²² is its product with 2⁻²², on every extended
    real. -/
theorem result_eq : val_main_v91 (F := Ideal) x0 x1 = fun _ => meanLoss x0 x1 := by
  funext i
  rw [val_main_v91_apply, sum_eq, val_main_cst_14_apply, Ideal.hostDivf_def, Ideal.ofBits_def, word_two_pow_22,
    Ideal.div_coe (by norm_num : (4194304 : ℝ) ≠ 0)]
  show _ = (∑ n : Fin 4194304, rowLoss x0 x1 n) * Ideal.ofBits .f32 0x34800000#32
  rw [word_two_pow_neg_22]

end Cert.ReferenceIdeal.RefValue

end
-- ==== Proof.lean ====
/-
  The mean matched-pair box loss: a grid kernel against its whole-array reference.

  Both programs take two `[4194304, 4]` arrays of box coordinates (a predicted and a target box per row) and return one
  number: the mean over the rows of
      (1 - iou) + 2 · (centre distance² / (enclosing diagonal² + ε + ε)) + 1 · (relative width error² + relative height error²).
  The kernel walks the rows in 2048 blocks of 2048, adds each block's sum of row losses to a one-entry accumulator that
  it zeroes at the first block, and at the last block writes the accumulator times 2⁻²²; the reference computes the
  4194304 row losses as one vector, sums it from zero and divides by 4194304 = 2²².

  Read over the extended reals the two agree on every input, finite or not: the row losses are the same expression of
  the same eight coordinates (the reference clips an overlap as `max 0 u`, the kernel as `max u 0`); a sum over
  2048 · 2048 rows is the sum over the blocks of the block sums, by associativity and commutativity of addition alone;
  and dividing an extended real by 2²² is multiplying it by 2⁻²². The ideal pass rewrote nothing, so the kernel's
  idealization is the kernel's own text.

  Modules: `LossSpec` (the row loss and the mean), `KernelPieces` (what one grid point leaves, per control case),
  `KernelPayload` (one point over the extended reals), `KernelAcc` (the accumulator across the grid), `KernelValue`
  (the kernel program's run), `RefValue` (the reference's result is the mean).
-/
import proofs.«124430_j89850715832989_1_alg».proof.Defs
import proofs.«124430_j89850715832989_1_alg».proof.Proof.Gen.Kernel
import proofs.«124430_j89850715832989_1_alg».proof.Proof.Gen.Kernel.Skeleton
import proofs.«124430_j89850715832989_1_alg».proof.Proof.Gen.Kernel.Launch
import proofs.«124430_j89850715832989_1_alg».proof.Proof.Gen.Kernel.Points
import proofs.«124430_j89850715832989_1_alg».proof.Proof.Gen.Kernel.Frame
import proofs.«124430_j89850715832989_1_alg».proof.Proof.Gen.KernelIdeal
import proofs.«124430_j89850715832989_1_alg».proof.Proof.Gen.KernelIdeal.Skeleton
import proofs.«124430_j89850715832989_1_alg».proof.Proof.Gen.KernelIdeal.Launch
import proofs.«124430_j89850715832989_1_alg».proof.Proof.Gen.KernelIdeal.Points
import proofs.«124430_j89850715832989_1_alg».proof.Proof.Gen.KernelIdeal.Frame
import proofs.«124430_j89850715832989_1_alg».proof.Proof.Gen.ReferenceIdeal
import proofs.«124430_j89850715832989_1_alg».proof.Proof.Gen.ReferenceIdeal.Run
import proofs.«124430_j89850715832989_1_alg».proof.Proof.Gen.ReferenceIdeal.Read
import proofs.«124430_j89850715832989_1_alg».proof.Proof.Gen.Pre_finite_inputs
import proofs.«124430_j89850715832989_1_alg».proof.Proof.KernelValue
import proofs.«124430_j89850715832989_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts)
    (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference runs and leaves its arguments unchanged: its run, with the result dropped. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the two coordinate arrays both programs end at the mean loss of those arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
